-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024x1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024x1024 .f32) (main_arg5 : FVec F S1024 .f32) (main_arg6 : FVec F S1024 .f32) (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024 .f32) (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x4096, .f32⟩
  | .hbm, ⟨20, _⟩ => ⟨S1024x4096, .f32⟩
  | .hbm, ⟨21, _⟩ => ⟨S2048x4096, .f32⟩
  | .hbm, ⟨22, _⟩ => ⟨S2048x4096, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S8192x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024x4096_S1024x4096_S2048x4096_d0 : Shape.Concatenates [S1024x4096, S1024x4096] S2048x4096 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x4096, .f32⟩
  | .hbm, ⟨20, _⟩ => ⟨S1024x4096, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.CellRun.lean ====
/-
  The LSTM cell kernel as a pipeline of 32 row blocks: what each grid point leaves in the two output blocks, and
  that the whole program runs to the end with every argument array unchanged.

  @main first assembles, on the host, the stacked weight matrix W = [Wx; Wh] (2048 x 4096, the four gates side by side
  in the columns) and the summed bias row b (1 x 4096), then launches the kernel over 32 blocks of 256 batch rows.
  At a grid point the kernel reads its 256 rows of x, h and c, the whole of W and b (which stay resident), and for each
  gate g = 0..3 forms  z_g = [x, h] · W[:, 1024 g .. 1024 g + 1023] + b[1024 g ..],  then
      i = logistic z_0,  f = logistic z_1,  g = tanh z_2,  o = logistic z_3,
      c' = f * c + i * g,      h' = o * tanh c',
  and stores h' and c' over the whole of its two output blocks.  Nothing is carried from one point to the next, so
  the contents of the output blocks after the body are a function of the five input blocks alone.
-/
import proofs.«173321_j884763263700_2_alg».proof.Proof.Gen.Kernel.Launch
import proofs.«173321_j884763263700_2_alg».proof.Proof.Gen.Kernel.Skeleton
import proofs.«173321_j884763263700_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- What core `c`'s buffers hold when the kernel is launched: the launch contents changed by the ten host
    operations that build the stacked weights and the bias row. -/
abbrev entry (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- @main is those host operations followed by the kernel's launch. -/
theorem toLaunch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the ten results `%0 … %9` is found by the kernel as it was launched. -/
theorem entry_of_unwritten (c : Dev nD) (b : Ref sig .tc)
    (h : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9) :
    entry m c b = m ((c : Thread nD τ).loc b) := by
  obtain ⟨h0, h1, h2, h3, h4, h5, h6, h7, h8, h9⟩ := h
  refine StableHlo.after_of_forall_not_mem (b := Proc.devRef .tc b) _ _ (List.forall_iff_forall_mem.mp ?_)
  simp only [hostOps0, List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9⟩

theorem entry_arg0 (c : Dev nD) : entry m c main_arg0 = m ((c : Thread nD τ).loc main_arg0) :=
  entry_of_unwritten m c main_arg0 (by decide)
theorem entry_arg1 (c : Dev nD) : entry m c main_arg1 = m ((c : Thread nD τ).loc main_arg1) :=
  entry_of_unwritten m c main_arg1 (by decide)
theorem entry_arg2 (c : Dev nD) : entry m c main_arg2 = m ((c : Thread nD τ).loc main_arg2) :=
  entry_of_unwritten m c main_arg2 (by decide)
theorem entry_arg3 (c : Dev nD) : entry m c main_arg3 = m ((c : Thread nD τ).loc main_arg3) :=
  entry_of_unwritten m c main_arg3 (by decide)
theorem entry_arg4 (c : Dev nD) : entry m c main_arg4 = m ((c : Thread nD τ).loc main_arg4) :=
  entry_of_unwritten m c main_arg4 (by decide)
theorem entry_arg5 (c : Dev nD) : entry m c main_arg5 = m ((c : Thread nD τ).loc main_arg5) :=
  entry_of_unwritten m c main_arg5 (by decide)
theorem entry_arg6 (c : Dev nD) : entry m c main_arg6 = m ((c : Thread nD τ).loc main_arg6) :=
  entry_of_unwritten m c main_arg6 (by decide)
theorem entry_arg7 (c : Dev nD) : entry m c main_arg7 = m ((c : Thread nD τ).loc main_arg7) :=
  entry_of_unwritten m c main_arg7 (by decide)
theorem entry_arg8 (c : Dev nD) : entry m c main_arg8 = m ((c : Thread nD τ).loc main_arg8) :=
  entry_of_unwritten m c main_arg8 (by decide)
theorem entry_arg9 (c : Dev nD) : entry m c main_arg9 = m ((c : Thread nD τ).loc main_arg9) :=
  entry_of_unwritten m c main_arg9 (by decide)
theorem entry_arg10 (c : Dev nD) : entry m c main_arg10 = m ((c : Thread nD τ).loc main_arg10) :=
  entry_of_unwritten m c main_arg10 (by decide)
theorem entry_arg11 (c : Dev nD) : entry m c main_arg11 = m ((c : Thread nD τ).loc main_arg11) :=
  entry_of_unwritten m c main_arg11 (by decide)
theorem entry_arg12 (c : Dev nD) : entry m c main_arg12 = m ((c : Thread nD τ).loc main_arg12) :=
  entry_of_unwritten m c main_arg12 (by decide)
theorem entry_arg13 (c : Dev nD) : entry m c main_arg13 = m ((c : Thread nD τ).loc main_arg13) :=
  entry_of_unwritten m c main_arg13 (by decide)
theorem entry_arg14 (c : Dev nD) : entry m c main_arg14 = m ((c : Thread nD τ).loc main_arg14) :=
  entry_of_unwritten m c main_arg14 (by decide)
theorem entry_arg15 (c : Dev nD) : entry m c main_arg15 = m ((c : Thread nD τ).loc main_arg15) :=
  entry_of_unwritten m c main_arg15 (by decide)
theorem entry_arg16 (c : Dev nD) : entry m c main_arg16 = m ((c : Thread nD τ).loc main_arg16) :=
  entry_of_unwritten m c main_arg16 (by decide)
theorem entry_arg17 (c : Dev nD) : entry m c main_arg17 = m ((c : Thread nD τ).loc main_arg17) :=
  entry_of_unwritten m c main_arg17 (by decide)
theorem entry_arg18 (c : Dev nD) : entry m c main_arg18 = m ((c : Thread nD τ).loc main_arg18) :=
  entry_of_unwritten m c main_arg18 (by decide)

/-! ## The blocks the kernel reads -/

/-- Window `w`'s block at grid point `t`, read off its array as the kernel finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- Input window 0's staging buffer holds its block at every point, whether the pipeline fetched it there or kept
    it from the point before (then the block index has not moved). -/
theorem staged0_of {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
/-- Input window 1's staging buffer holds its block at every point, whether the pipeline fetched it there or kept
    it from the point before (then the block index has not moved). -/
theorem staged1_of {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
/-- Input window 2's staging buffer holds its block at every point, whether the pipeline fetched it there or kept
    it from the point before (then the block index has not moved). -/
theorem staged2_of {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)
/-- Input window 3's staging buffer holds its block at every point, whether the pipeline fetched it there or kept
    it from the point before (then the block index has not moved). -/
theorem staged3_of {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)
/-- Input window 4's staging buffer holds its block at every point, whether the pipeline fetched it there or kept
    it from the point before (then the block index has not moved). -/
theorem staged4_of {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-! ## Unchanged arguments, from a run of the pipeline -/

/-- From a run of the pipeline to the library's post — every windowed array at what the write-backs leave, every other
    unscoped buffer as the kernel found it — the nineteen argument arrays end as launched: x, h and c are staged by input
    windows that are never written back, and the sixteen weights and biases are no window's array. -/
theorem unchanged_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) h

/-! ## What one grid point computes -/

/-- The whole of a 256 x 1024 block. -/
abbrev rows : Rect S256x1024 := Rect.unit (s := S256x1024) ![0, 0] S256x1024.size inb_S256x1024_S256x1024_0_0
/-- The columns of gate 0, 1, 2, 3 in the stacked weights, -/
abbrev wCols0 : Rect S2048x4096 := Rect.unit (s := S2048x4096) ![0, 0] S2048x1024.size inb_S2048x4096_S2048x1024_0_0
abbrev wCols1 : Rect S2048x4096 := Rect.unit (s := S2048x4096) ![0, 1024] S2048x1024.size inb_S2048x4096_S2048x1024_0_1024
abbrev wCols2 : Rect S2048x4096 := Rect.unit (s := S2048x4096) ![0, 2048] S2048x1024.size inb_S2048x4096_S2048x1024_0_2048
abbrev wCols3 : Rect S2048x4096 := Rect.unit (s := S2048x4096) ![0, 3072] S2048x1024.size inb_S2048x4096_S2048x1024_0_3072
/-- and in the bias row. -/
abbrev bCols0 : Rect S1x4096 := Rect.unit (s := S1x4096) ![0, 0] S1x1024.size inb_S1x4096_S1x1024_0_0
abbrev bCols1 : Rect S1x4096 := Rect.unit (s := S1x4096) ![0, 1024] S1x1024.size inb_S1x4096_S1x1024_0_1024
abbrev bCols2 : Rect S1x4096 := Rect.unit (s := S1x4096) ![0, 2048] S1x1024.size inb_S1x4096_S1x1024_0_2048
abbrev bCols3 : Rect S1x4096 := Rect.unit (s := S1x4096) ![0, 3072] S1x1024.size inb_S1x4096_S1x1024_0_3072

/-- The new cell state c' = f * c + i * g of a block, from the blocks of x, h, c and the resident W and b. -/
def cellVal (x : Vec F S256x1024 .f32) (h : Vec F S256x1024 .f32) (cc : Vec F S256x1024 .f32)
    (w : Vec F S2048x4096 .bf16) (b : Vec F S1x4096 .f32) : FVec F S256x1024 .f32 :=
  k0_pay1 (View.ld cc rows)
    (k0_pay4 (View.ld x rows) (View.ld h rows) (View.ld w wCols0) (View.ld b bCols0))
    (k0_pay5 (View.ld x rows) (View.ld h rows) (View.ld w wCols1) (View.ld b bCols1))
    (k0_pay6 (View.ld x rows) (View.ld h rows) (View.ld w wCols2) (View.ld b bCols2))

/-- The new hidden state h' = o * tanh c' of a block. -/
def hiddenVal (x : Vec F S256x1024 .f32) (h : Vec F S256x1024 .f32) (cc : Vec F S256x1024 .f32)
    (w : Vec F S2048x4096 .bf16) (b : Vec F S1x4096 .f32) : FVec F S256x1024 .f32 :=
  k0_pay2 (k0_pay3 (View.ld x rows) (View.ld h rows)) (View.ld cc rows)
    (k0_pay4 (View.ld x rows) (View.ld h rows) (View.ld w wCols0) (View.ld b bCols0))
    (k0_pay5 (View.ld x rows) (View.ld h rows) (View.ld w wCols1) (View.ld b bCols1))
    (k0_pay6 (View.ld x rows) (View.ld h rows) (View.ld w wCols2) (View.ld b bCols2))
    (k0_pay7 (View.ld w wCols3)) (k0_pay8 (View.ld b bCols3))

/-- The hidden-state output block after the body: one store over the whole block. -/
def hiddenBlock (x : Vec F S256x1024 .f32) (h : Vec F S256x1024 .f32) (cc : Vec F S256x1024 .f32)
    (w : Vec F S2048x4096 .bf16) (b : Vec F S1x4096 .f32) : Vec F S256x1024 .f32 :=
  View.canon [⟨rows, hiddenVal x h cc w b⟩]

/-- The cell-state output block after the body: one store over the whole block. -/
def cellBlock (x : Vec F S256x1024 .f32) (h : Vec F S256x1024 .f32) (cc : Vec F S256x1024 .f32)
    (w : Vec F S2048x4096 .bf16) (b : Vec F S1x4096 .f32) : Vec F S256x1024 .f32 :=
  View.canon [⟨rows, cellVal x h cc w b⟩]

/-- A single store through `rows` covers a 256 x 1024 block. -/
theorem rows_cover (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 4000000 in
/-- The kernel body, run on whole staging buffers holding blocks x, h, c, W, b and two output buffers holding
    anything, returns the five inputs as they were and the outputs at `hiddenBlock` and `cellBlock` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x : Vec F S256x1024 .f32) (h : Vec F S256x1024 .f32) (cc : Vec F S256x1024 .f32) (w : Vec F S2048x4096 .bf16) (b : Vec F S1x4096 .f32)
    (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cc
            ∗ owns (c : Thread nD τ) arg4 fullShare w ∗ owns (c : Thread nD τ) arg5 fullShare b
            ∗ owns (c : Thread nD τ) arg6 fullShare (hiddenBlock x h cc w b) ∗ owns (c : Thread nD τ) arg7 fullShare (cellBlock x h cc w b)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (rows_cover _)
  iexists _; isplitr
  swap; · iexact H7
  ipureintro
  try dsimp only
  exact View.read_writes_eq_canon _ _ _ (rows_cover _)

/-! ## The pipeline's proof data -/

/-- Per core: the arrays as the kernel finds them; after the body at point `t`, each input's buffer still at its block
    and the two outputs' at `hiddenBlock` / `cellBlock` of the five input blocks; nothing kept between points. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault, each windowed array ending at what the
    write-backs of the proof data leave and every other unscoped buffer as the kernel found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := toLaunch m Variants.none) (hA := A_eq m) (hΦ := fun _ _ => rfl)

/-- The program runs to the end and leaves its nineteen argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  unchanged_of m ρ (dats m) (A_eq m) (run_main m ρ)

end Cert.Kernel.Cell

end
-- ==== Proof.CellRunIdeal.lean ====
/-
  The LSTM cell kernel as a pipeline of 32 row blocks: what each grid point leaves in the two output blocks, and
  that the whole program runs to the end with every argument array unchanged.

  @main first assembles, on the host, the stacked weight matrix W = [Wx; Wh] (2048 x 4096, the four gates side by side
  in the columns) and the summed bias row b (1 x 4096), then launches the kernel over 32 blocks of 256 batch rows.
  At a grid point the kernel reads its 256 rows of x, h and c, the whole of W and b (which stay resident), and for each
  gate g = 0..3 forms  z_g = [x, h] · W[:, 1024 g .. 1024 g + 1023] + b[1024 g ..],  then
      i = logistic z_0,  f = logistic z_1,  g = tanh z_2,  o = logistic z_3,
      c' = f * c + i * g,      h' = o * tanh c',
  and stores h' and c' over the whole of its two output blocks.  Nothing is carried from one point to the next, so
  the contents of the output blocks after the body are a function of the five input blocks alone.
-/
import proofs.«173321_j884763263700_2_alg».proof.Proof.Gen.KernelIdeal.Launch
import proofs.«173321_j884763263700_2_alg».proof.Proof.Gen.KernelIdeal.Skeleton
import proofs.«173321_j884763263700_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- What core `c`'s buffers hold when the kernel is launched: the launch contents changed by the ten host
    operations that build the stacked weights and the bias row. -/
abbrev entry (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- @main is those host operations followed by the kernel's launch. -/
theorem toLaunch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the ten results `%0 … %9` is found by the kernel as it was launched. -/
theorem entry_of_unwritten (c : Dev nD) (b : Ref sig .tc)
    (h : b ≠ main_v0 ∧ b ≠ main_v1 ∧ b ≠ main_v2 ∧ b ≠ main_v3 ∧ b ≠ main_v4 ∧ b ≠ main_v5 ∧ b ≠ main_v6
      ∧ b ≠ main_v7 ∧ b ≠ main_v8 ∧ b ≠ main_v9) :
    entry m c b = m ((c : Thread nD τ).loc b) := by
  obtain ⟨h0, h1, h2, h3, h4, h5, h6, h7, h8, h9⟩ := h
  refine StableHlo.after_of_forall_not_mem (b := Proc.devRef .tc b) _ _ (List.forall_iff_forall_mem.mp ?_)
  simp only [hostOps0, List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9⟩

theorem entry_arg0 (c : Dev nD) : entry m c main_arg0 = m ((c : Thread nD τ).loc main_arg0) :=
  entry_of_unwritten m c main_arg0 (by decide)
theorem entry_arg1 (c : Dev nD) : entry m c main_arg1 = m ((c : Thread nD τ).loc main_arg1) :=
  entry_of_unwritten m c main_arg1 (by decide)
theorem entry_arg2 (c : Dev nD) : entry m c main_arg2 = m ((c : Thread nD τ).loc main_arg2) :=
  entry_of_unwritten m c main_arg2 (by decide)
theorem entry_arg3 (c : Dev nD) : entry m c main_arg3 = m ((c : Thread nD τ).loc main_arg3) :=
  entry_of_unwritten m c main_arg3 (by decide)
theorem entry_arg4 (c : Dev nD) : entry m c main_arg4 = m ((c : Thread nD τ).loc main_arg4) :=
  entry_of_unwritten m c main_arg4 (by decide)
theorem entry_arg5 (c : Dev nD) : entry m c main_arg5 = m ((c : Thread nD τ).loc main_arg5) :=
  entry_of_unwritten m c main_arg5 (by decide)
theorem entry_arg6 (c : Dev nD) : entry m c main_arg6 = m ((c : Thread nD τ).loc main_arg6) :=
  entry_of_unwritten m c main_arg6 (by decide)
theorem entry_arg7 (c : Dev nD) : entry m c main_arg7 = m ((c : Thread nD τ).loc main_arg7) :=
  entry_of_unwritten m c main_arg7 (by decide)
theorem entry_arg8 (c : Dev nD) : entry m c main_arg8 = m ((c : Thread nD τ).loc main_arg8) :=
  entry_of_unwritten m c main_arg8 (by decide)
theorem entry_arg9 (c : Dev nD) : entry m c main_arg9 = m ((c : Thread nD τ).loc main_arg9) :=
  entry_of_unwritten m c main_arg9 (by decide)
theorem entry_arg10 (c : Dev nD) : entry m c main_arg10 = m ((c : Thread nD τ).loc main_arg10) :=
  entry_of_unwritten m c main_arg10 (by decide)
theorem entry_arg11 (c : Dev nD) : entry m c main_arg11 = m ((c : Thread nD τ).loc main_arg11) :=
  entry_of_unwritten m c main_arg11 (by decide)
theorem entry_arg12 (c : Dev nD) : entry m c main_arg12 = m ((c : Thread nD τ).loc main_arg12) :=
  entry_of_unwritten m c main_arg12 (by decide)
theorem entry_arg13 (c : Dev nD) : entry m c main_arg13 = m ((c : Thread nD τ).loc main_arg13) :=
  entry_of_unwritten m c main_arg13 (by decide)
theorem entry_arg14 (c : Dev nD) : entry m c main_arg14 = m ((c : Thread nD τ).loc main_arg14) :=
  entry_of_unwritten m c main_arg14 (by decide)
theorem entry_arg15 (c : Dev nD) : entry m c main_arg15 = m ((c : Thread nD τ).loc main_arg15) :=
  entry_of_unwritten m c main_arg15 (by decide)
theorem entry_arg16 (c : Dev nD) : entry m c main_arg16 = m ((c : Thread nD τ).loc main_arg16) :=
  entry_of_unwritten m c main_arg16 (by decide)
theorem entry_arg17 (c : Dev nD) : entry m c main_arg17 = m ((c : Thread nD τ).loc main_arg17) :=
  entry_of_unwritten m c main_arg17 (by decide)
theorem entry_arg18 (c : Dev nD) : entry m c main_arg18 = m ((c : Thread nD τ).loc main_arg18) :=
  entry_of_unwritten m c main_arg18 (by decide)

/-! ## The blocks the kernel reads -/

/-- Window `w`'s block at grid point `t`, read off its array as the kernel finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- Input window 0's staging buffer holds its block at every point, whether the pipeline fetched it there or kept
    it from the point before (then the block index has not moved). -/
theorem staged0_of {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
/-- Input window 1's staging buffer holds its block at every point, whether the pipeline fetched it there or kept
    it from the point before (then the block index has not moved). -/
theorem staged1_of {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
/-- Input window 2's staging buffer holds its block at every point, whether the pipeline fetched it there or kept
    it from the point before (then the block index has not moved). -/
theorem staged2_of {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)
/-- Input window 3's staging buffer holds its block at every point, whether the pipeline fetched it there or kept
    it from the point before (then the block index has not moved). -/
theorem staged3_of {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)
/-- Input window 4's staging buffer holds its block at every point, whether the pipeline fetched it there or kept
    it from the point before (then the block index has not moved). -/
theorem staged4_of {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-! ## Unchanged arguments, from a run of the pipeline -/

/-- From a run of the pipeline to the library's post — every windowed array at what the write-backs leave, every other
    unscoped buffer as the kernel found it — the nineteen argument arrays end as launched: x, h and c are staged by input
    windows that are never written back, and the sixteen weights and biases are no window's array. -/
theorem unchanged_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) h

/-! ## What one grid point computes -/

/-- The whole of a 256 x 1024 block. -/
abbrev rows : Rect S256x1024 := Rect.unit (s := S256x1024) ![0, 0] S256x1024.size inb_S256x1024_S256x1024_0_0
/-- The columns of gate 0, 1, 2, 3 in the stacked weights, -/
abbrev wCols0 : Rect S2048x4096 := Rect.unit (s := S2048x4096) ![0, 0] S2048x1024.size inb_S2048x4096_S2048x1024_0_0
abbrev wCols1 : Rect S2048x4096 := Rect.unit (s := S2048x4096) ![0, 1024] S2048x1024.size inb_S2048x4096_S2048x1024_0_1024
abbrev wCols2 : Rect S2048x4096 := Rect.unit (s := S2048x4096) ![0, 2048] S2048x1024.size inb_S2048x4096_S2048x1024_0_2048
abbrev wCols3 : Rect S2048x4096 := Rect.unit (s := S2048x4096) ![0, 3072] S2048x1024.size inb_S2048x4096_S2048x1024_0_3072
/-- and in the bias row. -/
abbrev bCols0 : Rect S1x4096 := Rect.unit (s := S1x4096) ![0, 0] S1x1024.size inb_S1x4096_S1x1024_0_0
abbrev bCols1 : Rect S1x4096 := Rect.unit (s := S1x4096) ![0, 1024] S1x1024.size inb_S1x4096_S1x1024_0_1024
abbrev bCols2 : Rect S1x4096 := Rect.unit (s := S1x4096) ![0, 2048] S1x1024.size inb_S1x4096_S1x1024_0_2048
abbrev bCols3 : Rect S1x4096 := Rect.unit (s := S1x4096) ![0, 3072] S1x1024.size inb_S1x4096_S1x1024_0_3072

/-- The new cell state c' = f * c + i * g of a block, from the blocks of x, h, c and the resident W and b. -/
def cellVal (x : Vec F S256x1024 .f32) (h : Vec F S256x1024 .f32) (cc : Vec F S256x1024 .f32)
    (w : Vec F S2048x4096 .bf16) (b : Vec F S1x4096 .f32) : FVec F S256x1024 .f32 :=
  k0_pay1 (View.ld cc rows)
    (k0_pay4 (View.ld x rows) (View.ld h rows) (View.ld w wCols0) (View.ld b bCols0))
    (k0_pay5 (View.ld x rows) (View.ld h rows) (View.ld w wCols1) (View.ld b bCols1))
    (k0_pay6 (View.ld x rows) (View.ld h rows) (View.ld w wCols2) (View.ld b bCols2))

/-- The new hidden state h' = o * tanh c' of a block. -/
def hiddenVal (x : Vec F S256x1024 .f32) (h : Vec F S256x1024 .f32) (cc : Vec F S256x1024 .f32)
    (w : Vec F S2048x4096 .bf16) (b : Vec F S1x4096 .f32) : FVec F S256x1024 .f32 :=
  k0_pay2 (k0_pay3 (View.ld x rows) (View.ld h rows)) (View.ld cc rows)
    (k0_pay4 (View.ld x rows) (View.ld h rows) (View.ld w wCols0) (View.ld b bCols0))
    (k0_pay5 (View.ld x rows) (View.ld h rows) (View.ld w wCols1) (View.ld b bCols1))
    (k0_pay6 (View.ld x rows) (View.ld h rows) (View.ld w wCols2) (View.ld b bCols2))
    (k0_pay7 (View.ld w wCols3)) (k0_pay8 (View.ld b bCols3))

/-- The hidden-state output block after the body: one store over the whole block. -/
def hiddenBlock (x : Vec F S256x1024 .f32) (h : Vec F S256x1024 .f32) (cc : Vec F S256x1024 .f32)
    (w : Vec F S2048x4096 .bf16) (b : Vec F S1x4096 .f32) : Vec F S256x1024 .f32 :=
  View.canon [⟨rows, hiddenVal x h cc w b⟩]

/-- The cell-state output block after the body: one store over the whole block. -/
def cellBlock (x : Vec F S256x1024 .f32) (h : Vec F S256x1024 .f32) (cc : Vec F S256x1024 .f32)
    (w : Vec F S2048x4096 .bf16) (b : Vec F S1x4096 .f32) : Vec F S256x1024 .f32 :=
  View.canon [⟨rows, cellVal x h cc w b⟩]

/-- A single store through `rows` covers a 256 x 1024 block. -/
theorem rows_cover (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 4000000 in
/-- The kernel body, run on whole staging buffers holding blocks x, h, c, W, b and two output buffers holding
    anything, returns the five inputs as they were and the outputs at `hiddenBlock` and `cellBlock` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x : Vec F S256x1024 .f32) (h : Vec F S256x1024 .f32) (cc : Vec F S256x1024 .f32) (w : Vec F S2048x4096 .bf16) (b : Vec F S1x4096 .f32)
    (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cc
            ∗ owns (c : Thread nD τ) arg4 fullShare w ∗ owns (c : Thread nD τ) arg5 fullShare b
            ∗ owns (c : Thread nD τ) arg6 fullShare (hiddenBlock x h cc w b) ∗ owns (c : Thread nD τ) arg7 fullShare (cellBlock x h cc w b)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (rows_cover _)
  iexists _; isplitr
  swap; · iexact H7
  ipureintro
  try dsimp only
  exact View.read_writes_eq_canon _ _ _ (rows_cover _)

/-! ## The pipeline's proof data -/

/-- Per core: the arrays as the kernel finds them; after the body at point `t`, each input's buffer still at its block
    and the two outputs' at `hiddenBlock` / `cellBlock` of the five input blocks; nothing kept between points. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault, each windowed array ending at what the
    write-backs of the proof data leave and every other unscoped buffer as the kernel found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := toLaunch m Variants.none) (hA := A_eq m) (hΦ := fun _ _ => rfl)

/-- The program runs to the end and leaves its nineteen argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  unchanged_of m ρ (dats m) (A_eq m) (run_main m ρ)

end Cert.KernelIdeal.Cell

end
-- ==== Proof.CellSpec.lean ====
/-
  The LSTM cell as one function of its arguments, on the extended reals.

  With WX, WH the four gates' input and recurrent weight matrices set side by side (1024 x 4096 each) and B the four
  summed biases end to end (4096), the pre-activation of batch row r at column n is
      pre r n = (Σ_k x[r,k] · WX[k,n]  +  Σ_k h[r,k] · WH[k,n])  +  B[n],
  gate g occupies columns 1024 g .. 1024 g + 1023, and
      i = logistic pre_0,  f = logistic pre_1,  g = tanh pre_2,  o = logistic pre_3,
      c' = f · c + i · g,        h' = o · tanh c'.
  A kernel that stacks [x, h] against [WX; WH] computes the two sums as ONE sum over 2048 terms; that is the same
  extended real, because a sum over Fin (a + b) is the sum of its two halves in any commutative monoid (no
  finiteness is needed: + on the extended reals is commutative and associative everywhere).
-/
import Idealize.ShloMosaic.PureOps.Ideal
import Idealize.ShloMosaic.Lib.ValueIdx
import Idealize.ShloMosaic.Lib.IdealHost

noncomputable section

namespace LstmCell

open Idealize.ShloMosaic Idealize.ShloMosaic.ValueIdx

abbrev Rows : Shape := ⟨2, ![8192, 1024]⟩
abbrev Wide : Shape := ⟨2, ![1024, 4096]⟩
abbrev Bias : Shape := ⟨1, ![4096]⟩

/-- Column `j` of gate `g` among the 4096 stacked columns. -/
def col (g : Fin 4) (j : Fin 1024) : Fin 4096 := ⟨1024 * g.val + j.val, by have := g.isLt; have := j.isLt; omega⟩

@[simp] theorem col_val (g : Fin 4) (j : Fin 1024) : (col g j).val = 1024 * g.val + j.val := rfl

/-- The pre-activation of row `r` at stacked column `n`. -/
def pre (x h : Rows.Idx → EReal) (WX WH : Wide.Idx → EReal) (B : Bias.Idx → EReal) (r : Fin 8192) (n : Fin 4096) : EReal :=
  (∑ k : Fin 1024, x (ix2 r k) * WX (ix2 k n) + ∑ k : Fin 1024, h (ix2 r k) * WH (ix2 k n)) + B (ix1 n)

/-- The new cell state, index by index. -/
def cellNew (x h c : Rows.Idx → EReal) (WX WH : Wide.Idx → EReal) (B : Bias.Idx → EReal) : Rows.Idx → EReal := fun i =>
  Ideal.logistic (pre x h WX WH B (i 0) (col 1 (i 1))) * c i
    + Ideal.logistic (pre x h WX WH B (i 0) (col 0 (i 1))) * Ideal.tanh (pre x h WX WH B (i 0) (col 2 (i 1)))

/-- The new hidden state, index by index. -/
def hiddenNew (x h c : Rows.Idx → EReal) (WX WH : Wide.Idx → EReal) (B : Bias.Idx → EReal) : Rows.Idx → EReal := fun i =>
  Ideal.logistic (pre x h WX WH B (i 0) (col 3 (i 1))) * Ideal.tanh (cellNew x h c WX WH B i)

/-- The stacked form of the two sums: one sum over 2048 terms whose first 1024 are the first sum's and whose last
    1024 are the second's. -/
theorem stacked_sum {M : Type} [AddCommMonoid M] (u : Fin 2048 → M) (a b : Fin 1024 → M)
    (ha : ∀ k : Fin 1024, u ⟨k.val, by have := k.isLt; omega⟩ = a k)
    (hb : ∀ k : Fin 1024, u ⟨1024 + k.val, by have := k.isLt; omega⟩ = b k) :
    ∑ k : Fin 2048, u k = ∑ k : Fin 1024, a k + ∑ k : Fin 1024, b k := by
  have e : (1024 + 1024 : ℕ) = 2048 := by norm_num
  rw [← Fin.sum_congr' u e, Fin.sum_univ_add]
  congr 1
  · exact Finset.sum_congr rfl fun k _ => (congrArg u (Fin.ext rfl)).trans (ha k)
  · exact Finset.sum_congr rfl fun k _ => (congrArg u (Fin.ext rfl)).trans (hb k)

/-- jax's expansion of the logistic function on the host — 1 / (1 + e^(-z)) with the literal 1.0 — is the logistic. -/
theorem logistic_expanded (z : EReal) :
    Ideal.div (Ideal.ofBits .f32 0x3F800000#32) (Ideal.ofBits .f32 0x3F800000#32 + Ideal.exp (-z)) = Ideal.logistic z := by
  rw [Ideal.ofBits_one_f32]; rfl

end LstmCell

end
-- ==== Proof.CellBlockValue.lean ====
/-
  What the kernel body computes on one block of 256 rows, read entry by entry on the extended reals.

  For row p of the block and stacked column n, with W the resident 2048 x 4096 weight block and b the resident bias row,
      blockPre p n = (Σ_{k<1024} x[p,k] · W[k,n]  +  Σ_{k<1024} h[p,k] · W[1024 + k, n])  +  b[0,n] :
  the body multiplies the row of [x, h] (x in columns 0..1023, h in columns 1024..2047) into the 1024 columns of gate
  g, a single sum over 2048 terms into a zero accumulator, which is the sum of its two halves; the bias row is
  broadcast down the 256 rows.  The narrowing of x, h and W to bf16 is the identity on the extended reals.
-/
import proofs.«173321_j884763263700_2_alg».proof.Proof.CellRunIdeal
import proofs.«173321_j884763263700_2_alg».proof.Proof.CellSpec
import Idealize.ShloMosaic.Lib.Pipeline.Value
import Idealize.ShloMosaic.Lib.ValueIdx
import Idealize.ShloMosaic.PureOps.Ideal.Laws

noncomputable section

namespace Cert.KernelIdeal.CellBlock

open Cert.KernelIdeal Cert.KernelIdeal.Gen Cert.KernelIdeal.Cell
open Idealize.ShloMosaic Idealize.ShloMosaic.ValueIdx LstmCell

/-- The k-th row of the upper (x) half and of the lower (h) half of the stacked weights. -/
def lo (k : Fin 1024) : Fin 2048 := ⟨k.val, by have := k.isLt; omega⟩
def hi (k : Fin 1024) : Fin 2048 := ⟨1024 + k.val, by have := k.isLt; omega⟩

theorem hz : (![0, 0] : Fin 2 → Nat) = fun _ => 0 := funext fun a => by fin_cases a <;> rfl

/-! ## The matrix product as a sum over the 2048 stacked columns -/

theorem lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_mid (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_mid (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Into a zero accumulator the 256 x 2048 by 2048 x 1024 product at (p, j) is Σ_k lhs[p,k] · rhs[k,j]. -/
theorem product_at (lhs : FVec Ideal S256x2048 .bf16) (rhs : FVec Ideal S2048x1024 .bf16) (p : Fin 256) (j : Fin 1024) :
    FloatOps.matmul dot_S256x2048_S2048x1024_S256x1024_1_0_0_1_n_n none lhs rhs (constant (F := Ideal) S256x1024 .f32 0x00000000#32) (ix2 p j)
      = ∑ k : Fin 2048, lhs (ix2 p k) * rhs (ix2 k j) := by
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p j) ((contrEquiv1 dot_S256x2048_S2048x1024_S256x1024_1_0_0_1_n_n 2048 rfl rfl).symm k) = ix2 p k := funext fun a => Fin.ext (by
    match a with
    | ⟨0, _⟩ => exact lhs_row _ _
    | ⟨1, _⟩ => exact (lhs_mid _ _).trans hk)
  have er : dot_S256x2048_S2048x1024_S256x1024_1_0_0_1_n_n.rhsIdx (ix2 p j) ((contrEquiv1 dot_S256x2048_S2048x1024_S256x1024_1_0_0_1_n_n 2048 rfl rfl).symm k) = ix2 k j := funext fun a => Fin.ext (by
    match a with
    | ⟨0, _⟩ => exact (rhs_mid _ _).trans hk
    | ⟨1, _⟩ => exact rhs_col _ _)
  rw [el, er]

/-! ## The row of [x, h] -/

/-- Columns 0..1023 of the stacked row are x's, -/
theorem stacked_lo (x h : Vec Ideal S256x1024 .f32) (p : Fin 256) (k : Fin 1024) :
    k0_pay3 (F := Ideal) x h (ix2 p (lo k)) = x (ix2 p k) := by
  unfold k0_pay3
  exact concatenate_pair_apply_left 1 _ _ concatenates_S256x1024_S256x1024_S256x2048_d1 (ix2 p (lo k)) rfl (ix2 p k)
    (fun b => by match b with | ⟨0, _⟩ => rfl | ⟨1, _⟩ => rfl)

/-- and columns 1024..2047 are h's. -/
theorem stacked_hi (x h : Vec Ideal S256x1024 .f32) (p : Fin 256) (k : Fin 1024) :
    k0_pay3 (F := Ideal) x h (ix2 p (hi k)) = h (ix2 p k) := by
  unfold k0_pay3
  exact concatenate_pair_apply_right 1 _ _ concatenates_S256x1024_S256x1024_S256x2048_d1 (ix2 p (hi k)) rfl rfl (ix2 p k)
    (fun b hb => by match b with | ⟨0, _⟩ => rfl | ⟨1, _⟩ => exact absurd rfl hb)
    (show k.val + 1024 = 1024 + k.val by omega)

/-! ## One gate's pre-activation -/

/-- The bias row broadcast down the block's rows. -/
theorem bias_at (bg : FVec Ideal S1x1024 .f32) (p : Fin 256) (j : Fin 1024) :
    broadcastTo S256x1024 (shapeCast S1x1024 bg shapeCasts_S1x1024_S1x1024) broadcasts_S1x1024_S256x1024 (ix2 p j)
      = bg (ix2 (0 : Fin 1) j) :=
  (broadcastTo_apply _ broadcasts_S1x1024_S256x1024 (ix2 p j) (ix2 (0 : Fin 1) j)
      (fun a => by match a with | ⟨0, _⟩ => rfl | ⟨1, _⟩ => rfl)).trans
    (congrFun (shapeCast_self bg shapeCasts_S1x1024_S1x1024) _)

/-- A gate's pre-activation from its 2048 x 1024 weight columns `wg` and its 1 x 1024 bias columns `bg`. -/
theorem gate_pre_at (x h : Vec Ideal S256x1024 .f32) (wg : FVec Ideal S2048x1024 .bf16) (bg : FVec Ideal S1x1024 .f32)
    (p : Fin 256) (j : Fin 1024) :
    addf (matmul dot_S256x2048_S2048x1024_S256x1024_1_0_0_1_n_n none (k0_pay3 (F := Ideal) x h) (shapeCast S2048x1024 wg shapeCasts_S2048x1024_S2048x1024)
          (constant (F := Ideal) S256x1024 .f32 0x00000000#32))
        (broadcastTo S256x1024 (shapeCast S1x1024 bg shapeCasts_S1x1024_S1x1024) broadcasts_S1x1024_S256x1024) (ix2 p j)
      = (∑ k : Fin 1024, x (ix2 p k) * wg (ix2 (lo k) j) + ∑ k : Fin 1024, h (ix2 p k) * wg (ix2 (hi k) j))
          + bg (ix2 (0 : Fin 1) j) := by
  have hm : matmul dot_S256x2048_S2048x1024_S256x1024_1_0_0_1_n_n none (k0_pay3 (F := Ideal) x h) (shapeCast S2048x1024 wg shapeCasts_S2048x1024_S2048x1024)
        (constant (F := Ideal) S256x1024 .f32 0x00000000#32) (ix2 p j)
      = ∑ k : Fin 1024, x (ix2 p k) * wg (ix2 (lo k) j) + ∑ k : Fin 1024, h (ix2 p k) * wg (ix2 (hi k) j) :=
    (product_at _ _ p j).trans (stacked_sum _ _ _
      (fun k => congr (congrArg HMul.hMul (stacked_lo x h p k)) (congrFun (shapeCast_self wg shapeCasts_S2048x1024_S2048x1024) _))
      (fun k => congr (congrArg HMul.hMul (stacked_hi x h p k)) (congrFun (shapeCast_self wg shapeCasts_S2048x1024_S2048x1024) _)))
  exact congr (congrArg HAdd.hAdd hm) (bias_at bg p j)

/-! ## Loads through the gates' column ranges -/

theorem ldW0 (w : Vec Ideal S2048x4096 .bf16) (k : Fin 2048) (j : Fin 1024) :
    View.ld w wCols0 (ix2 k j) = w (ix2 k (col 0 j)) :=
  congrArg w (funext fun a => Fin.ext (by
    match a with
    | ⟨0, _⟩ => (show 0 + 1 * k.val = k.val; omega)
    | ⟨1, _⟩ => (show 0 + 1 * j.val = 1024 * 0 + j.val; omega)))
theorem ldB0 (b : Vec Ideal S1x4096 .f32) (u : Fin 1) (j : Fin 1024) :
    View.ld b bCols0 (ix2 u j) = b (ix2 u (col 0 j)) :=
  congrArg b (funext fun a => Fin.ext (by
    match a with
    | ⟨0, _⟩ => (show 0 + 1 * u.val = u.val; omega)
    | ⟨1, _⟩ => (show 0 + 1 * j.val = 1024 * 0 + j.val; omega)))
theorem ldW1 (w : Vec Ideal S2048x4096 .bf16) (k : Fin 2048) (j : Fin 1024) :
    View.ld w wCols1 (ix2 k j) = w (ix2 k (col 1 j)) :=
  congrArg w (funext fun a => Fin.ext (by
    match a with
    | ⟨0, _⟩ => (show 0 + 1 * k.val = k.val; omega)
    | ⟨1, _⟩ => (show 1024 + 1 * j.val = 1024 * 1 + j.val; omega)))
theorem ldB1 (b : Vec Ideal S1x4096 .f32) (u : Fin 1) (j : Fin 1024) :
    View.ld b bCols1 (ix2 u j) = b (ix2 u (col 1 j)) :=
  congrArg b (funext fun a => Fin.ext (by
    match a with
    | ⟨0, _⟩ => (show 0 + 1 * u.val = u.val; omega)
    | ⟨1, _⟩ => (show 1024 + 1 * j.val = 1024 * 1 + j.val; omega)))
theorem ldW2 (w : Vec Ideal S2048x4096 .bf16) (k : Fin 2048) (j : Fin 1024) :
    View.ld w wCols2 (ix2 k j) = w (ix2 k (col 2 j)) :=
  congrArg w (funext fun a => Fin.ext (by
    match a with
    | ⟨0, _⟩ => (show 0 + 1 * k.val = k.val; omega)
    | ⟨1, _⟩ => (show 2048 + 1 * j.val = 1024 * 2 + j.val; omega)))
theorem ldB2 (b : Vec Ideal S1x4096 .f32) (u : Fin 1) (j : Fin 1024) :
    View.ld b bCols2 (ix2 u j) = b (ix2 u (col 2 j)) :=
  congrArg b (funext fun a => Fin.ext (by
    match a with
    | ⟨0, _⟩ => (show 0 + 1 * u.val = u.val; omega)
    | ⟨1, _⟩ => (show 2048 + 1 * j.val = 1024 * 2 + j.val; omega)))
theorem ldW3 (w : Vec Ideal S2048x4096 .bf16) (k : Fin 2048) (j : Fin 1024) :
    View.ld w wCols3 (ix2 k j) = w (ix2 k (col 3 j)) :=
  congrArg w (funext fun a => Fin.ext (by
    match a with
    | ⟨0, _⟩ => (show 0 + 1 * k.val = k.val; omega)
    | ⟨1, _⟩ => (show 3072 + 1 * j.val = 1024 * 3 + j.val; omega)))
theorem ldB3 (b : Vec Ideal S1x4096 .f32) (u : Fin 1) (j : Fin 1024) :
    View.ld b bCols3 (ix2 u j) = b (ix2 u (col 3 j)) :=
  congrArg b (funext fun a => Fin.ext (by
    match a with
    | ⟨0, _⟩ => (show 0 + 1 * u.val = u.val; omega)
    | ⟨1, _⟩ => (show 3072 + 1 * j.val = 1024 * 3 + j.val; omega)))

/-! ## The block's pre-activations, gates and outputs -/

/-- The pre-activation of block row `p` at stacked column `n`, from the block's x and h rows and the resident W, b. -/
def blockPre (x h : Vec Ideal S256x1024 .f32) (w : Vec Ideal S2048x4096 .bf16) (b : Vec Ideal S1x4096 .f32)
    (p : Fin 256) (n : Fin 4096) : EReal :=
  (∑ k : Fin 1024, x (ix2 p k) * w (ix2 (lo k) n) + ∑ k : Fin 1024, h (ix2 p k) * w (ix2 (hi k) n)) + b (ix2 (0 : Fin 1) n)

/-- A gate whose weight and bias columns are the stacked columns `n j` of W and b has `blockPre` at those columns. -/
theorem pre_of_cols (x h : Vec Ideal S256x1024 .f32) (w : Vec Ideal S2048x4096 .bf16) (b : Vec Ideal S1x4096 .f32)
    (wg : FVec Ideal S2048x1024 .bf16) (bg : FVec Ideal S1x1024 .f32) (n : Fin 1024 → Fin 4096)
    (hw : ∀ (k : Fin 2048) (j : Fin 1024), wg (ix2 k j) = w (ix2 k (n j)))
    (hb : ∀ j : Fin 1024, bg (ix2 (0 : Fin 1) j) = b (ix2 (0 : Fin 1) (n j))) (p : Fin 256) (j : Fin 1024) :
    (∑ k : Fin 1024, x (ix2 p k) * wg (ix2 (lo k) j) + ∑ k : Fin 1024, h (ix2 p k) * wg (ix2 (hi k) j)) + bg (ix2 (0 : Fin 1) j)
      = blockPre x h w b p (n j) := by
  unfold blockPre
  simp only [hw, hb]

/-- The input gate of the block. -/
theorem input_at (x h : Vec Ideal S256x1024 .f32) (w : Vec Ideal S2048x4096 .bf16) (b : Vec Ideal S1x4096 .f32) (p : Fin 256) (j : Fin 1024) :
    k0_pay4 (F := Ideal) x h (View.ld w wCols0) (View.ld b bCols0) (ix2 p j) = Ideal.logistic (blockPre x h w b p (col 0 j)) := by
  unfold k0_pay4
  exact (congrArg Ideal.logistic (gate_pre_at x h (View.ld w wCols0) (View.ld b bCols0) p j)).trans
    (congrArg Ideal.logistic (pre_of_cols x h w b _ _ (col 0) (ldW0 w) (fun j => ldB0 b 0 j) p j))
/-- The forget gate of the block. -/
theorem forget_at (x h : Vec Ideal S256x1024 .f32) (w : Vec Ideal S2048x4096 .bf16) (b : Vec Ideal S1x4096 .f32) (p : Fin 256) (j : Fin 1024) :
    k0_pay5 (F := Ideal) x h (View.ld w wCols1) (View.ld b bCols1) (ix2 p j) = Ideal.logistic (blockPre x h w b p (col 1 j)) := by
  unfold k0_pay5
  exact (congrArg Ideal.logistic (gate_pre_at x h (View.ld w wCols1) (View.ld b bCols1) p j)).trans
    (congrArg Ideal.logistic (pre_of_cols x h w b _ _ (col 1) (ldW1 w) (fun j => ldB1 b 0 j) p j))
/-- The candidate gate of the block. -/
theorem candidate_at (x h : Vec Ideal S256x1024 .f32) (w : Vec Ideal S2048x4096 .bf16) (b : Vec Ideal S1x4096 .f32) (p : Fin 256) (j : Fin 1024) :
    k0_pay6 (F := Ideal) x h (View.ld w wCols2) (View.ld b bCols2) (ix2 p j) = Ideal.tanh (blockPre x h w b p (col 2 j)) := by
  unfold k0_pay6
  exact (congrArg Ideal.tanh (gate_pre_at x h (View.ld w wCols2) (View.ld b bCols2) p j)).trans
    (congrArg Ideal.tanh (pre_of_cols x h w b _ _ (col 2) (ldW2 w) (fun j => ldB2 b 0 j) p j))

/-- The new cell state of the block: f · c + i · g. -/
theorem cellVal_at (x h cc : Vec Ideal S256x1024 .f32) (w : Vec Ideal S2048x4096 .bf16) (b : Vec Ideal S1x4096 .f32) (p : Fin 256) (j : Fin 1024) :
    cellVal (F := Ideal) x h cc w b (ix2 p j)
      = Ideal.logistic (blockPre x h w b p (col 1 j)) * cc (ix2 p j)
        + Ideal.logistic (blockPre x h w b p (col 0 j)) * Ideal.tanh (blockPre x h w b p (col 2 j)) := by
  have ex : View.ld x rows = x := View.ld_unit_zero hz _ x
  have eh : View.ld h rows = h := View.ld_unit_zero hz _ h
  have ec : View.ld cc rows = cc := View.ld_unit_zero hz _ cc
  unfold cellVal
  rw [ex, eh, ec]
  exact congr (congrArg HAdd.hAdd (congr (congrArg HMul.hMul (forget_at x h w b p j)) rfl))
    (congr (congrArg HMul.hMul (input_at x h w b p j)) (candidate_at x h w b p j))

/-- The new hidden state of the block: o · tanh c'. -/
theorem hiddenVal_at (x h cc : Vec Ideal S256x1024 .f32) (w : Vec Ideal S2048x4096 .bf16) (b : Vec Ideal S1x4096 .f32) (p : Fin 256) (j : Fin 1024) :
    hiddenVal (F := Ideal) x h cc w b (ix2 p j)
      = Ideal.logistic (blockPre x h w b p (col 3 j)) * Ideal.tanh (cellVal (F := Ideal) x h cc w b (ix2 p j)) := by
  have ex : View.ld x rows = x := View.ld_unit_zero hz _ x
  have eh : View.ld h rows = h := View.ld_unit_zero hz _ h
  have ec : View.ld cc rows = cc := View.ld_unit_zero hz _ cc
  have ho : addf (matmul dot_S256x2048_S2048x1024_S256x1024_1_0_0_1_n_n none (k0_pay3 (F := Ideal) x h) (k0_pay7 (F := Ideal) (View.ld w wCols3))
          (constant (F := Ideal) S256x1024 .f32 0x00000000#32))
        (broadcastTo S256x1024 (k0_pay8 (F := Ideal) (View.ld b bCols3)) broadcasts_S1x1024_S256x1024) (ix2 p j)
      = blockPre x h w b p (col 3 j) := by
    exact (gate_pre_at x h (View.ld w wCols3) (View.ld b bCols3) p j).trans
      (pre_of_cols x h w b _ _ (col 3) (ldW3 w) (fun j => ldB3 b 0 j) p j)
  unfold hiddenVal cellVal
  rw [ex, eh, ec]
  exact congr (congrArg HMul.hMul (congrArg Ideal.logistic ho)) rfl

end Cert.KernelIdeal.CellBlock

end
-- ==== Proof.CellArrayValue.lean ====
/-
  From blocks to arrays: after the run, the kernel's two result arrays are the cell function of the arguments.

  Grid point t handles batch rows 256 t .. 256 t + 255: the x, h and c windows and the two output windows all sit at
  block row t, and the weight and bias windows stay at block (0, 0).  The resident weight block is the stacked
  matrix the host built, [WX; WH] narrowed to bf16 (the identity on the extended reals): its rows 0..1023 are WX's
  and its rows 1024..2047 are WH's; the resident bias row is the host's 4096 summed biases laid out as one row.  So a
  block's pre-activation at block row p is the cell function's pre-activation at batch row 256 t + p, what point t
  writes back is block t of the cell function's result, and the 32 blocks tile the 8192 rows.
-/
import proofs.«173321_j884763263700_2_alg».proof.Proof.CellBlockValue
import Idealize.ShloMosaic.Lib.StableHlo.Run

set_option maxRecDepth 16384

noncomputable section

namespace Cert.KernelIdeal.CellArray

open Cert.KernelIdeal Cert.KernelIdeal.Gen Cert.KernelIdeal.Cell Cert.KernelIdeal.CellBlock
open Idealize.ShloMosaic Idealize.ShloMosaic.TcCoe Idealize.SL.Sem Idealize.ShloMosaic.StableHlo
open Idealize.ShloMosaic.ValueIdx LstmCell
open Idealize.ShloMosaic.Pipeline (Dat)

variable (m : (ℓ : Loc nD τ sig) → Buf (Elt Ideal) ℓ) (ρ : Dev nD → PrngReg)

/-! ## What the host builds before the launch -/

/-- The four gates' input weights side by side, their recurrent weights side by side, and their summed biases end to
    end, as the host operations compute them from the argument arrays. -/
abbrev WX (c : Dev nD) : S1024x4096.Idx → EReal :=
  concatenate S1024x4096 1 [⟨S1024x1024, m ((c : Thread nD τ).loc main_arg3)⟩, ⟨S1024x1024, m ((c : Thread nD τ).loc main_arg7)⟩, ⟨S1024x1024, m ((c : Thread nD τ).loc main_arg11)⟩, ⟨S1024x1024, m ((c : Thread nD τ).loc main_arg15)⟩] concatenates_S1024x1024_S1024x1024_S1024x1024_S1024x1024_S1024x4096_d1
abbrev WH (c : Dev nD) : S1024x4096.Idx → EReal :=
  concatenate S1024x4096 1 [⟨S1024x1024, m ((c : Thread nD τ).loc main_arg4)⟩, ⟨S1024x1024, m ((c : Thread nD τ).loc main_arg8)⟩, ⟨S1024x1024, m ((c : Thread nD τ).loc main_arg12)⟩, ⟨S1024x1024, m ((c : Thread nD τ).loc main_arg16)⟩] concatenates_S1024x1024_S1024x1024_S1024x1024_S1024x1024_S1024x4096_d1
abbrev BB (c : Dev nD) : S4096.Idx → EReal :=
  concatenate S4096 0 [⟨S1024, addf (F := Ideal) (s := S1024) (φ := .f32) (m ((c : Thread nD τ).loc main_arg5)) (m ((c : Thread nD τ).loc main_arg6))⟩, ⟨S1024, addf (F := Ideal) (s := S1024) (φ := .f32) (m ((c : Thread nD τ).loc main_arg9)) (m ((c : Thread nD τ).loc main_arg10))⟩, ⟨S1024, addf (F := Ideal) (s := S1024) (φ := .f32) (m ((c : Thread nD τ).loc main_arg13)) (m ((c : Thread nD τ).loc main_arg14))⟩, ⟨S1024, addf (F := Ideal) (s := S1024) (φ := .f32) (m ((c : Thread nD τ).loc main_arg17)) (m ((c : Thread nD τ).loc main_arg18))⟩] concatenates_S1024_S1024_S1024_S1024_S4096_d0

/-- The kernel's weight operand is [WX; WH] narrowed to bf16, -/
theorem entry_W (c : Dev nD) : (entry m c main_v3 : S2048x4096.Idx → EReal)
    = truncf (F := Ideal) .bf16 (concatenate S2048x4096 0 [⟨S1024x4096, WX m c⟩, ⟨S1024x4096, WH m c⟩] concatenates_S1024x4096_S1024x4096_S2048x4096_d0) bitsLt_bf16_f32 := by
  dsimp only [entry, hostOps0]
  after_results_simp <;> rfl

/-- and its bias operand is the 4096 summed biases as a 1 x 4096 row. -/
theorem entry_B (c : Dev nD) : (entry m c main_v9 : S1x4096.Idx → EReal)
    = shapeCast S1x4096 (BB m c) shapeCasts_S4096_S1x4096 := by
  dsimp only [entry, hostOps0]
  after_results_simp <;> rfl

/-- Rows 0..1023 of the weight operand are WX's, -/
theorem W_lo (c : Dev nD) (k : Fin 1024) (n : Fin 4096) : entry m c main_v3 (ix2 (lo k) n) = WX m c (ix2 k n) :=
  (congrFun (entry_W m c) (ix2 (lo k) n)).trans
    (concatenate_pair_apply_left 0 _ _ concatenates_S1024x4096_S1024x4096_S2048x4096_d0 (ix2 (lo k) n) rfl (ix2 k n)
      (fun b => by match b with | ⟨0, _⟩ => rfl | ⟨1, _⟩ => rfl))

/-- rows 1024..2047 are WH's, -/
theorem W_hi (c : Dev nD) (k : Fin 1024) (n : Fin 4096) : entry m c main_v3 (ix2 (hi k) n) = WH m c (ix2 k n) :=
  (congrFun (entry_W m c) (ix2 (hi k) n)).trans
    (concatenate_pair_apply_right 0 _ _ concatenates_S1024x4096_S1024x4096_S2048x4096_d0 (ix2 (hi k) n) rfl rfl (ix2 k n)
      (fun b hb => by match b with | ⟨0, _⟩ => exact absurd rfl hb | ⟨1, _⟩ => rfl)
      (show k.val + 1024 = 1024 + k.val by omega))

/-- and the bias row at column n is the n-th summed bias. -/
theorem B_at (c : Dev nD) (n : Fin 4096) : entry m c main_v9 (ix2 (0 : Fin 1) n) = BB m c (ix1 n) :=
  (congrFun (entry_B m c) (ix2 (0 : Fin 1) n)).trans
    (shapeCast_apply (BB m c) shapeCasts_S4096_S1x4096 (ix2 (0 : Fin 1) n) (ix1 n) (by
      rw [Shape.rowMajor_val_one, Shape.rowMajor_val_two]
      show n.val = 0 * 4096 + n.val
      omega))

/-! ## The windows' blocks at a grid point -/

/-- Where each window's block sits at point t (decided over the 32 points). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := lt_of_lt_of_eq t.isLt N_0

/-- The batch row that block row p of point t is. -/
def rowOf (t : Fin cfg0.N) (p : Fin 256) : Fin 8192 :=
  ⟨256 * t.val + p.val, by have := point_lt t; have := p.isLt; omega⟩

theorem rows0_at (c : Dev nD) (t : Fin cfg0.N) (p : Fin 256) (k : Fin 1024) :
    blockAt m c 0 t (ix2 p k) = m ((c : Thread nD τ).loc main_arg0) (ix2 (rowOf t p) k) := by
  obtain ⟨e00, e01, e10, e11, e20, e21, -⟩ := index_facts t
  show entry m c main_arg0 (((cfg0.win 0).blk t).view.emb (ix2 p k)) = _
  rw [entry_arg0]
  refine congrArg _ (funext fun a => Fin.ext ?_)
  match a with
  | ⟨0, _⟩ => (show win0_0.index t (0 : Fin 2) * 256 + 1 * p.val = 256 * t.val + p.val; omega)
  | ⟨1, _⟩ => (show win0_0.index t (1 : Fin 2) * 1024 + 1 * k.val = k.val; omega)
theorem rows1_at (c : Dev nD) (t : Fin cfg0.N) (p : Fin 256) (k : Fin 1024) :
    blockAt m c 1 t (ix2 p k) = m ((c : Thread nD τ).loc main_arg1) (ix2 (rowOf t p) k) := by
  obtain ⟨e00, e01, e10, e11, e20, e21, -⟩ := index_facts t
  show entry m c main_arg1 (((cfg0.win 1).blk t).view.emb (ix2 p k)) = _
  rw [entry_arg1]
  refine congrArg _ (funext fun a => Fin.ext ?_)
  match a with
  | ⟨0, _⟩ => (show win0_1.index t (0 : Fin 2) * 256 + 1 * p.val = 256 * t.val + p.val; omega)
  | ⟨1, _⟩ => (show win0_1.index t (1 : Fin 2) * 1024 + 1 * k.val = k.val; omega)
theorem rows2_at (c : Dev nD) (t : Fin cfg0.N) (p : Fin 256) (k : Fin 1024) :
    blockAt m c 2 t (ix2 p k) = m ((c : Thread nD τ).loc main_arg2) (ix2 (rowOf t p) k) := by
  obtain ⟨e00, e01, e10, e11, e20, e21, -⟩ := index_facts t
  show entry m c main_arg2 (((cfg0.win 2).blk t).view.emb (ix2 p k)) = _
  rw [entry_arg2]
  refine congrArg _ (funext fun a => Fin.ext ?_)
  match a with
  | ⟨0, _⟩ => (show win0_2.index t (0 : Fin 2) * 256 + 1 * p.val = 256 * t.val + p.val; omega)
  | ⟨1, _⟩ => (show win0_2.index t (1 : Fin 2) * 1024 + 1 * k.val = k.val; omega)

theorem weights_at (c : Dev nD) (t : Fin cfg0.N) (k : Fin 2048) (n : Fin 4096) :
    blockAt m c 3 t (ix2 k n) = entry m c main_v3 (ix2 k n) := by
  obtain ⟨-, -, -, -, -, -, e30, e31, -⟩ := index_facts t
  show entry m c main_v3 (((cfg0.win 3).blk t).view.emb (ix2 k n)) = _
  refine congrArg _ (funext fun a => Fin.ext ?_)
  match a with
  | ⟨0, _⟩ => (show win0_3.index t (0 : Fin 2) * 2048 + 1 * k.val = k.val; omega)
  | ⟨1, _⟩ => (show win0_3.index t (1 : Fin 2) * 4096 + 1 * n.val = n.val; omega)

theorem biases_at (c : Dev nD) (t : Fin cfg0.N) (u : Fin 1) (n : Fin 4096) :
    blockAt m c 4 t (ix2 u n) = entry m c main_v9 (ix2 u n) := by
  obtain ⟨-, -, -, -, -, -, -, -, e40, e41, -⟩ := index_facts t
  show entry m c main_v9 (((cfg0.win 4).blk t).view.emb (ix2 u n)) = _
  refine congrArg _ (funext fun a => Fin.ext ?_)
  match a with
  | ⟨0, _⟩ => (show win0_4.index t (0 : Fin 2) * 1 + 1 * u.val = u.val; omega)
  | ⟨1, _⟩ => (show win0_4.index t (1 : Fin 2) * 4096 + 1 * n.val = n.val; omega)

/-! ## A block's values are the cell function's at its batch rows -/

theorem blockPre_eq (c : Dev nD) (t : Fin cfg0.N) (p : Fin 256) (n : Fin 4096) :
    blockPre (blockAt m c 0 t) (blockAt m c 1 t) (blockAt m c 3 t) (blockAt m c 4 t) p n
      = pre (m ((c : Thread nD τ).loc main_arg0)) (m ((c : Thread nD τ).loc main_arg1)) (WX m c) (WH m c) (BB m c) (rowOf t p) n := by
  unfold blockPre pre
  simp only [rows0_at, rows1_at, weights_at, biases_at]
  exact congr (congrArg HAdd.hAdd (congr (congrArg HAdd.hAdd
      (Finset.sum_congr rfl fun k _ => congrArg (HMul.hMul (α := EReal) (β := EReal) (γ := EReal) (m ((c : Thread nD τ).loc main_arg0) (ix2 (rowOf t p) k))) (W_lo m c k n)))
      (Finset.sum_congr rfl fun k _ => congrArg (HMul.hMul (α := EReal) (β := EReal) (γ := EReal) (m ((c : Thread nD τ).loc main_arg1) (ix2 (rowOf t p) k))) (W_hi m c k n))))
    (B_at m c n)

theorem cellVal_eq (c : Dev nD) (t : Fin cfg0.N) (p : Fin 256) (j : Fin 1024) :
    cellVal (F := Ideal) (blockAt m c 0 t) (blockAt m c 1 t) (blockAt m c 2 t) (blockAt m c 3 t) (blockAt m c 4 t) (ix2 p j)
      = cellNew (m ((c : Thread nD τ).loc main_arg0)) (m ((c : Thread nD τ).loc main_arg1)) (m ((c : Thread nD τ).loc main_arg2)) (WX m c) (WH m c) (BB m c) (ix2 (rowOf t p) j) := by
  rw [cellVal_at, blockPre_eq, blockPre_eq, blockPre_eq, rows2_at]
  rfl

theorem hiddenVal_eq (c : Dev nD) (t : Fin cfg0.N) (p : Fin 256) (j : Fin 1024) :
    hiddenVal (F := Ideal) (blockAt m c 0 t) (blockAt m c 1 t) (blockAt m c 2 t) (blockAt m c 3 t) (blockAt m c 4 t) (ix2 p j)
      = hiddenNew (m ((c : Thread nD τ).loc main_arg0)) (m ((c : Thread nD τ).loc main_arg1)) (m ((c : Thread nD τ).loc main_arg2)) (WX m c) (WH m c) (BB m c) (ix2 (rowOf t p) j) := by
  rw [hiddenVal_at, blockPre_eq, cellVal_eq]
  rfl

/-! ## What each point writes back, and the cover -/

/-- The two result arrays, as functions of the arguments. -/
abbrev hiddenArr (c : Dev nD) : S8192x1024.Idx → EReal := hiddenNew (m ((c : Thread nD τ).loc main_arg0)) (m ((c : Thread nD τ).loc main_arg1)) (m ((c : Thread nD τ).loc main_arg2)) (WX m c) (WH m c) (BB m c)
abbrev cellArr (c : Dev nD) : S8192x1024.Idx → EReal := cellNew (m ((c : Thread nD τ).loc main_arg0)) (m ((c : Thread nD τ).loc main_arg1)) (m ((c : Thread nD τ).loc main_arg2)) (WX m c) (WH m c) (BB m c)

set_option backward.isDefEq.respectTransparency.types false in
/-- Point t writes back block t of the hidden array. -/
theorem hidden_flushed (c : Dev nD) (t : Fin cfg0.N) :
    (dats m 0 c).flushed 5 t = ((cfg0.win 5).blk t).view.read (Elt Ideal) (hiddenArr m c) := by
  obtain ⟨-, -, -, -, -, -, -, -, -, -, e50, e51, -⟩ := index_facts t
  show (cfg0.win 5).cut (grid0.coords t) ((dats m 0 c).after 5 t) = _
  rw [after5]
  unfold hiddenBlock
  rw [View.canon_unit_zero hz]
  funext y
  obtain ⟨p, j, rfl⟩ : ∃ (p : Fin 256) (j : Fin 1024), y = ix2 p j := ⟨y 0, y 1, eq_ix2 y⟩
  show hiddenVal (F := Ideal) (blockAt m c 0 t) (blockAt m c 1 t) (blockAt m c 2 t) (blockAt m c 3 t) (blockAt m c 4 t) (ix2 p j)
      = hiddenArr m c (((cfg0.win 5).blk t).view.emb (ix2 p j))
  rw [hiddenVal_eq]
  refine congrArg _ (funext fun a => Fin.ext ?_)
  match a with
  | ⟨0, _⟩ => (show 256 * t.val + p.val = win0_5.index t (0 : Fin 2) * 256 + 1 * p.val; omega)
  | ⟨1, _⟩ => (show j.val = win0_5.index t (1 : Fin 2) * 1024 + 1 * j.val; omega)

theorem mem_block5 (t : Fin cfg0.N) (i : S8192x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v10_0).slice (win0_5.rect t)).set ↔ _
  rw [View.set_slice_whole, Rect.mem_set_unit]
  exact Iff.rfl

/-- Every row of the hidden array is in the block of the point its row number over 256 names. -/
theorem hidden_covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := by show (i 0).val / 256 < grid0.N; rw [N_0]; omega
  obtain ⟨-, -, -, -, -, -, -, -, -, -, e50, e51, -⟩ := index_facts ⟨(i 0).val / 256, hN⟩
  refine ⟨⟨(i 0).val / 256, hN⟩, flush0_5 _, ?_⟩
  rw [mem_block5]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    rw [e50]
    show (i 0).val / 256 * 256 ≤ (i 0).val ∧ (i 0).val < (i 0).val / 256 * 256 + 256
    omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    rw [e51]
    omega

/-- After the last point the hidden array is the cell function's result. -/
theorem hidden_final (c : Dev nD) : (dats m 0 c).arrAt 5 cfg0.N = hiddenArr m c :=
  (dats m 0 c).arrAt_eq_of_cover 5 (hiddenArr m c) (fun t _ => hidden_flushed m c t) hidden_covered

set_option backward.isDefEq.respectTransparency.types false in
/-- Point t writes back block t of the cell array. -/
theorem cell_flushed (c : Dev nD) (t : Fin cfg0.N) :
    (dats m 0 c).flushed 6 t = ((cfg0.win 6).blk t).view.read (Elt Ideal) (cellArr m c) := by
  obtain ⟨-, -, -, -, -, -, -, -, -, -, -, -, e60, e61⟩ := index_facts t
  show (cfg0.win 6).cut (grid0.coords t) ((dats m 0 c).after 6 t) = _
  rw [after6]
  unfold cellBlock
  rw [View.canon_unit_zero hz]
  funext y
  obtain ⟨p, j, rfl⟩ : ∃ (p : Fin 256) (j : Fin 1024), y = ix2 p j := ⟨y 0, y 1, eq_ix2 y⟩
  show cellVal (F := Ideal) (blockAt m c 0 t) (blockAt m c 1 t) (blockAt m c 2 t) (blockAt m c 3 t) (blockAt m c 4 t) (ix2 p j)
      = cellArr m c (((cfg0.win 6).blk t).view.emb (ix2 p j))
  rw [cellVal_eq]
  refine congrArg _ (funext fun a => Fin.ext ?_)
  match a with
  | ⟨0, _⟩ => (show 256 * t.val + p.val = win0_6.index t (0 : Fin 2) * 256 + 1 * p.val; omega)
  | ⟨1, _⟩ => (show j.val = win0_6.index t (1 : Fin 2) * 1024 + 1 * j.val; omega)

theorem mem_block6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v10_1).slice (win0_6.rect t)).set ↔ _
  rw [View.set_slice_whole, Rect.mem_set_unit]
  exact Iff.rfl

/-- Every row of the cell array is in the block of the point its row number over 256 names. -/
theorem cell_covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 256 < cfg0.N := by show (i 0).val / 256 < grid0.N; rw [N_0]; omega
  obtain ⟨-, -, -, -, -, -, -, -, -, -, -, -, e60, e61⟩ := index_facts ⟨(i 0).val / 256, hN⟩
  refine ⟨⟨(i 0).val / 256, hN⟩, flush0_6 _, ?_⟩
  rw [mem_block6]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    rw [e60]
    show (i 0).val / 256 * 256 ≤ (i 0).val ∧ (i 0).val < (i 0).val / 256 * 256 + 256
    omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    rw [e61]
    omega

/-- After the last point the cell array is the cell function's result. -/
theorem cell_final (c : Dev nD) : (dats m 0 c).arrAt 6 cfg0.N = cellArr m c :=
  (dats m 0 c).arrAt_eq_of_cover 6 (cellArr m c) (fun t _ => cell_flushed m c t) cell_covered

/-! ## The run, with both results named -/

/-- Every weakly fair execution of the idealized kernel program terminates without a fault, with the two results
    at the cell function of the arguments and the nineteen arguments unchanged. -/
theorem run : θ_run defs (onTc (τ := τ) (main (F := Ideal))) ⟨m, fun _ => 0, ρ⟩ fun r => ∀ c : Dev nD,
      r.2.mem ((c.tc : Thread nD τ).loc main_v10_0) = hiddenArr m c
      ∧ r.2.mem ((c.tc : Thread nD τ).loc main_v10_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 5).trans (hidden_final m c), ((h c).1 6).trans (cell_final m c),
      ((h c).1 0).trans (((dats m 0 c).arrAt_in 0 rfl _).trans ((A_eq m c 0).trans (entry_arg0 m c))),
      ((h c).1 1).trans (((dats m 0 c).arrAt_in 1 rfl _).trans ((A_eq m c 1).trans (entry_arg1 m c))),
      ((h c).1 2).trans (((dats m 0 c).arrAt_in 2 rfl _).trans ((A_eq m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩)
    (run_main m ρ)

end Cert.KernelIdeal.CellArray

end
-- ==== Proof.CellReference.lean ====
/-
  The reference program computes the cell function of CellSpec: its two results, read index by index, are
  `LstmCell.hiddenNew` and `LstmCell.cellNew` of the arguments, with WX, WH the reference's own side-by-side weight
  matrices and B its end-to-end summed biases.

  The reference forms  (x · WX + h · WH) + broadcast(B)  over all 8192 x 4096 pre-activations, slices the four gates'
  column ranges out of it, and applies jax's expansion of the logistic, 1 / (1 + e^(-z)), to gates 0, 1 and 3.
-/
import proofs.«173321_j884763263700_2_alg».proof.Proof.Gen.ReferenceIdeal.Read
import proofs.«173321_j884763263700_2_alg».proof.Proof.CellSpec

noncomputable section

namespace Cert.ReferenceIdeal.CellRef

open Cert.ReferenceIdeal Cert.ReferenceIdeal.Read Idealize.ShloMosaic Idealize.ShloMosaic.ValueIdx LstmCell

variable (x0 x1 x2 : FVec Ideal S8192x1024 .f32) (x3 x4 x7 x8 x11 x12 x15 x16 : FVec Ideal S1024x1024 .f32)
  (x5 x6 x9 x10 x13 x14 x17 x18 : FVec Ideal S1024 .f32)

/-- The reference's side-by-side input weights, recurrent weights, and end-to-end summed biases. -/
abbrev WX : Wide.Idx → EReal := val_main_v0 (F := Ideal) x3 x7 x11 x15
abbrev WH : Wide.Idx → EReal := val_main_v1 (F := Ideal) x4 x8 x12 x16
abbrev BB : Bias.Idx → EReal := val_main_v6 (F := Ideal) x5 x6 x9 x10 x13 x14 x17 x18

/-- The full pre-activation array at row `r`, stacked column `n`. -/
theorem pre_at (r : Fin 8192) (n : Fin 4096) :
    val_main_v12 (F := Ideal) x0 x1 x3 x4 x5 x6 x7 x8 x9 x10 x11 x12 x13 x14 x15 x16 x17 x18 (ix2 r n)
      = pre x0 x1 (WX x3 x7 x11 x15) (WH x4 x8 x12 x16) (BB x5 x6 x9 x10 x13 x14 x17 x18) r n := by
  rw [val_main_v12_apply, val_main_v9_apply, val_main_v7_apply, val_main_v8_apply, val_main_v11_apply, val_main_v10_apply]
  have el7 : ∀ k : Fin 1024, lidx_main_v7 (ix2 r n) k = ix2 r k := fun k =>
    funext fun a => Fin.ext (by match a with | ⟨0, _⟩ => rfl | ⟨1, _⟩ => rfl)
  have er7 : ∀ k : Fin 1024, ridx_main_v7 (ix2 r n) k = ix2 k n := fun k =>
    funext fun a => Fin.ext (by match a with | ⟨0, _⟩ => rfl | ⟨1, _⟩ => rfl)
  have el8 : ∀ k : Fin 1024, lidx_main_v8 (ix2 r n) k = ix2 r k := fun k =>
    funext fun a => Fin.ext (by match a with | ⟨0, _⟩ => rfl | ⟨1, _⟩ => rfl)
  have er8 : ∀ k : Fin 1024, ridx_main_v8 (ix2 r n) k = ix2 k n := fun k =>
    funext fun a => Fin.ext (by match a with | ⟨0, _⟩ => rfl | ⟨1, _⟩ => rfl)
  have eb : idx_main_v10 (idx_main_v11 (ix2 r n)) = ix1 n :=
    funext fun a => Fin.ext (by match a with | ⟨0, _⟩ => rfl)
  simp only [el7, er7, el8, er8, eb]
  rfl

/-- Gate `g`'s slice at (r, j) is the pre-activation at stacked column `col g j`. -/
theorem gate0_at (r : Fin 8192) (j : Fin 1024) :
    val_main_v13 (F := Ideal) x0 x1 x3 x4 x5 x6 x7 x8 x9 x10 x11 x12 x13 x14 x15 x16 x17 x18 (ix2 r j)
      = pre x0 x1 (WX x3 x7 x11 x15) (WH x4 x8 x12 x16) (BB x5 x6 x9 x10 x13 x14 x17 x18) r (col 0 j) := by
  rw [val_main_v13_apply, ← pre_at]
  exact congrArg _ (funext fun a => Fin.ext (by match a with | ⟨0, _⟩ => rfl | ⟨1, _⟩ => (show (j : ℕ) = 1024 * 0 + j; omega)))
theorem gate1_at (r : Fin 8192) (j : Fin 1024) :
    val_main_v14 (F := Ideal) x0 x1 x3 x4 x5 x6 x7 x8 x9 x10 x11 x12 x13 x14 x15 x16 x17 x18 (ix2 r j)
      = pre x0 x1 (WX x3 x7 x11 x15) (WH x4 x8 x12 x16) (BB x5 x6 x9 x10 x13 x14 x17 x18) r (col 1 j) := by
  rw [val_main_v14_apply, ← pre_at]
  exact congrArg _ (funext fun a => Fin.ext (by match a with | ⟨0, _⟩ => rfl | ⟨1, _⟩ => (show 1024 + (j : ℕ) = 1024 * 1 + j; omega)))
theorem gate2_at (r : Fin 8192) (j : Fin 1024) :
    val_main_v15 (F := Ideal) x0 x1 x3 x4 x5 x6 x7 x8 x9 x10 x11 x12 x13 x14 x15 x16 x17 x18 (ix2 r j)
      = pre x0 x1 (WX x3 x7 x11 x15) (WH x4 x8 x12 x16) (BB x5 x6 x9 x10 x13 x14 x17 x18) r (col 2 j) := by
  rw [val_main_v15_apply, ← pre_at]
  exact congrArg _ (funext fun a => Fin.ext (by match a with | ⟨0, _⟩ => rfl | ⟨1, _⟩ => (show 2048 + (j : ℕ) = 1024 * 2 + j; omega)))
theorem gate3_at (r : Fin 8192) (j : Fin 1024) :
    val_main_v16 (F := Ideal) x0 x1 x3 x4 x5 x6 x7 x8 x9 x10 x11 x12 x13 x14 x15 x16 x17 x18 (ix2 r j)
      = pre x0 x1 (WX x3 x7 x11 x15) (WH x4 x8 x12 x16) (BB x5 x6 x9 x10 x13 x14 x17 x18) r (col 3 j) := by
  rw [val_main_v16_apply, ← pre_at]
  exact congrArg _ (funext fun a => Fin.ext (by match a with | ⟨0, _⟩ => rfl | ⟨1, _⟩ => (show 3072 + (j : ℕ) = 1024 * 3 + j; omega)))

/-- The expanded logistic of gate 0 (the input gate), -/
theorem input_gate_at (r : Fin 8192) (j : Fin 1024) :
    val_main_v22 (F := Ideal) x0 x1 x3 x4 x5 x6 x7 x8 x9 x10 x11 x12 x13 x14 x15 x16 x17 x18 (ix2 r j)
      = Ideal.logistic (pre x0 x1 (WX x3 x7 x11 x15) (WH x4 x8 x12 x16) (BB x5 x6 x9 x10 x13 x14 x17 x18) r (col 0 j)) := by
  rw [val_main_v22_apply, val_main_v21_apply, val_main_v20_apply, val_main_v19_apply, val_main_v18_apply, val_main_v17_apply, gate0_at]
  exact logistic_expanded _
/-- of gate 1 (the forget gate), -/
theorem forget_gate_at (r : Fin 8192) (j : Fin 1024) :
    val_main_v28 (F := Ideal) x0 x1 x3 x4 x5 x6 x7 x8 x9 x10 x11 x12 x13 x14 x15 x16 x17 x18 (ix2 r j)
      = Ideal.logistic (pre x0 x1 (WX x3 x7 x11 x15) (WH x4 x8 x12 x16) (BB x5 x6 x9 x10 x13 x14 x17 x18) r (col 1 j)) := by
  rw [val_main_v28_apply, val_main_v27_apply, val_main_v26_apply, val_main_v25_apply, val_main_v24_apply, val_main_v23_apply, gate1_at]
  exact logistic_expanded _
/-- and of gate 3 (the output gate). -/
theorem output_gate_at (r : Fin 8192) (j : Fin 1024) :
    val_main_v35 (F := Ideal) x0 x1 x3 x4 x5 x6 x7 x8 x9 x10 x11 x12 x13 x14 x15 x16 x17 x18 (ix2 r j)
      = Ideal.logistic (pre x0 x1 (WX x3 x7 x11 x15) (WH x4 x8 x12 x16) (BB x5 x6 x9 x10 x13 x14 x17 x18) r (col 3 j)) := by
  rw [val_main_v35_apply, val_main_v34_apply, val_main_v33_apply, val_main_v32_apply, val_main_v31_apply, val_main_v30_apply, gate3_at]
  exact logistic_expanded _

/-- The reference's second result is the new cell state. -/
theorem cell_eq :
    val_main_v38 (F := Ideal) x0 x1 x2 x3 x4 x5 x6 x7 x8 x9 x10 x11 x12 x13 x14 x15 x16 x17 x18
      = cellNew x0 x1 x2 (WX x3 x7 x11 x15) (WH x4 x8 x12 x16) (BB x5 x6 x9 x10 x13 x14 x17 x18) := by
  funext i
  obtain ⟨r, j, rfl⟩ : ∃ (r : Fin 8192) (j : Fin 1024), i = ix2 r j := ⟨i 0, i 1, eq_ix2 i⟩
  rw [val_main_v38_apply, val_main_v36_apply, val_main_v37_apply, val_main_v29_apply, forget_gate_at, input_gate_at, gate2_at]
  rfl

/-- The reference's first result is the new hidden state. -/
theorem hidden_eq :
    val_main_v40 (F := Ideal) x0 x1 x2 x3 x4 x5 x6 x7 x8 x9 x10 x11 x12 x13 x14 x15 x16 x17 x18
      = hiddenNew x0 x1 x2 (WX x3 x7 x11 x15) (WH x4 x8 x12 x16) (BB x5 x6 x9 x10 x13 x14 x17 x18) := by
  funext i
  obtain ⟨r, j, rfl⟩ : ∃ (r : Fin 8192) (j : Fin 1024), i = ix2 r j := ⟨i 0, i 1, eq_ix2 i⟩
  rw [val_main_v40_apply, val_main_v39_apply, output_gate_at, cell_eq]
  rfl

end Cert.ReferenceIdeal.CellRef

end
-- ==== Proof.lean ====
/-
  An LSTM cell kernel against its jnp reference: both compute, on the extended reals,
      i = logistic z_0,  f = logistic z_1,  g = tanh z_2,  o = logistic z_3,   c' = f · c + i · g,   h' = o · tanh c',
  where z_g are the four 1024-column ranges of  z = x · WX + h · WH + B  (WX, WH the gates' weights side by side, B their
  summed biases end to end).

  The kernel stacks [x, h] against [WX; WH] and forms z as ONE product with 2048 inner terms per entry, block by block
  over 32 blocks of 256 batch rows; the reference forms the two products separately and adds them.  A sum over
  Fin (1024 + 1024) is the sum of its two halves in any commutative monoid, so the two are the same extended real at
  every entry, with no appeal to finiteness of the inputs.  The kernel's `tpu.logistic` and the reference's expansion
  1 / (1 + e^(-z)) are one function on the extended reals, as are the two tanh's; narrowing to bf16 is the identity
  there.  The frames: each program runs to the end without a fault and leaves its nineteen argument arrays unchanged;
  the kernel's idealization rewrote nothing, so `preserves` has nothing to state.
-/
import proofs.«173321_j884763263700_2_alg».proof.Defs
import proofs.«173321_j884763263700_2_alg».proof.Proof.Gen.Kernel
import proofs.«173321_j884763263700_2_alg».proof.Proof.Gen.Kernel.Skeleton
import proofs.«173321_j884763263700_2_alg».proof.Proof.Gen.Kernel.Launch
import proofs.«173321_j884763263700_2_alg».proof.Proof.Gen.Kernel.Points
import proofs.«173321_j884763263700_2_alg».proof.Proof.Gen.KernelIdeal
import proofs.«173321_j884763263700_2_alg».proof.Proof.Gen.KernelIdeal.Skeleton
import proofs.«173321_j884763263700_2_alg».proof.Proof.Gen.KernelIdeal.Launch
import proofs.«173321_j884763263700_2_alg».proof.Proof.Gen.KernelIdeal.Points
import proofs.«173321_j884763263700_2_alg».proof.Proof.Gen.ReferenceIdeal
import proofs.«173321_j884763263700_2_alg».proof.Proof.Gen.ReferenceIdeal.Run
import proofs.«173321_j884763263700_2_alg».proof.Proof.Gen.ReferenceIdeal.Read
import proofs.«173321_j884763263700_2_alg».proof.Proof.Gen.Pre_finite_inputs
import proofs.«173321_j884763263700_2_alg».proof.Proof.CellRun
import proofs.«173321_j884763263700_2_alg».proof.Proof.CellRunIdeal
import proofs.«173321_j884763263700_2_alg».proof.Proof.CellArrayValue
import proofs.«173321_j884763263700_2_alg».proof.Proof.CellReference
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Cell.unchanged m ρ

/-- So does the idealized kernel program. -/
theorem frame_kernel_ideal : Cert.frame_KernelIdeal := fun m ρ _ => Cert.KernelIdeal.Cell.unchanged m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the new hidden state and the new cell state of
    the cell function: the kernel's result arrays block by block, the reference's operation by operation. -/
theorem algebraic : Cert.algebraic_KernelIdeal_ReferenceIdeal := by
  intro m ρ m' ρ' _ hagree
  refine ⟨fun c => Cert.KernelIdeal.CellArray.hiddenArr m c, fun c => Cert.KernelIdeal.CellArray.cellArr m c,
    Cert.KernelIdeal.CellArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨g0, g1, g2, g3, g4, g5, g6, g7, g8, g9, g10, g11, g12, g13, g14, g15, g16, g17, g18⟩ := hagree c
    rw [Cert.ReferenceIdeal.Read.val_main_v40_eq, Cert.ReferenceIdeal.CellRef.hidden_eq, g0, g1, g2, g3, g4, g5, g6, g7, g8, g9, g10, g11, g12, g13, g14, g15, g16, g17, g18]
    rfl
  · obtain ⟨g0, g1, g2, g3, g4, g5, g6, g7, g8, g9, g10, g11, g12, g13, g14, g15, g16, g17, g18⟩ := hagree c
    rw [Cert.ReferenceIdeal.Read.val_main_v38_eq, Cert.ReferenceIdeal.CellRef.cell_eq, g0, g1, g2, g3, g4, g5, g6, g7, g8, g9, g10, g11, g12, g13, g14, g15, g16, g17, g18]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
